-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096 : S_.BroadcastsInDim S4096 (![] : Fin 0 → Fin S4096.rank)
  reducesTo_S4096_S_d0 : S4096.ReducesTo [0] S_
  reducesTo_S_S_d : S_.ReducesTo [] S_

variable [Facts]

def fn_part1 {F : FTy → Type} [FloatOps F] (main_v12 : IVec S_ 1) (main_v15 : IVec S4096 1) (main_c_5 : IVec S_ 1) : IVec S_ 1 :=
  let main_v16 : IVec S_ 1 := (fun x v => Host.reduce IntOp.andi x v reducesTo_S4096_S_d0 h_S_) main_v15 main_c_5
  let main_v17 : IVec S_ 1 := andi main_v12 main_v16
  main_v17

def fn {F : FTy → Type} [FloatOps F] (main_arg0 : FVec F S8192x4096 .f32) (main_arg1 : IVec S4096x4096 32) (main_arg2 : FVec F S4096 .f32) (main_arg3 : IVec S4096 32) (main_arg4 : FVec F S_ .f32) (main_arg5 : IVec S_ 32) (main_arg6 : IVec S4096 32) (main_arg7 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096 .f32 := Host.absf main_arg2
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  let main_v9 : FVec F S_ .f32 := Host.absf main_arg4
  let main_cst_2 : FVec F S_ .f32 := constant S_ .f32 0x7F800000#32
  let main_v10 : IVec S_ 1 := cmpf .olt main_v9 main_cst_2
  let main_c_3 : IVec S_ 1 := constantI S_ 1 1#1
  let main_v11 : IVec S_ 1 := (fun x v => Host.reduce IntOp.andi x v reducesTo_S_S_d h_S_) main_v10 main_c_3
  let main_v12 : IVec S_ 1 := andi main_v8 main_v11
  let main_v13 : FVec F S4096 .f32 := Host.absf main_arg7
  let main_cst_4 : FVec F S_ .f32 := constant S_ .f32 0x7F800000#32
  let main_v14 : FVec F S4096 .f32 := broadcastInDim S4096 ![] bcast_S_S4096 main_cst_4
  let main_v15 : IVec S4096 1 := cmpf .olt main_v13 main_v14
  let main_c_5 : IVec S_ 1 := constantI S_ 1 1#1
  fn_part1 (F := F) main_v12 main_v15 main_c_5
-- ==== Kernel.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩
abbrev S4096x1 : Shape := ⟨2, ![4096, 1]⟩
abbrev S1x4096 : Shape := ⟨2, ![1, 4096]⟩
abbrev S1x1 : Shape := ⟨2, ![1, 1]⟩
abbrev S1024x512 : Shape := ⟨2, ![1024, 512]⟩
abbrev S1x1024 : Shape := ⟨2, ![1, 1024]⟩
abbrev S1024x1024 : Shape := ⟨2, ![1024, 1024]⟩

abbrev nBuf : Space → Nat
  | .hbm => 20
  | .vmem => 15
  | .smem => 0
  | _ => 0

abbrev bufTy : (tb : Table) → Fin (tcTables nBuf tb) → BufTy
  | .hbm, ⟨0, _⟩ => ⟨S8192x4096, .f32⟩
  | .hbm, ⟨1, _⟩ => ⟨S4096x4096, .i32⟩
  | .hbm, ⟨2, _⟩ => ⟨S4096, .f32⟩
  | .hbm, ⟨3, _⟩ => ⟨S4096, .i32⟩
  | .hbm, ⟨4, _⟩ => ⟨S_, .f32⟩
  | .hbm, ⟨5, _⟩ => ⟨S_, .i32⟩
  | .hbm, ⟨6, _⟩ => ⟨S4096, .i32⟩
  | .hbm, ⟨7, _⟩ => ⟨S4096, .f32⟩
  | .hbm, ⟨8, _⟩ => ⟨S4096x1, .i32⟩
  | .hbm, ⟨9, _⟩ => ⟨S4096x4096, .i32⟩
  | .hbm, ⟨10, _⟩ => ⟨S4096x4096, .i32⟩
  | .hbm, ⟨11, _⟩ => ⟨S4096x4096, .bf16⟩
  | .hbm, ⟨12, _⟩ => ⟨S1x4096, .f32⟩
  | .hbm, ⟨13, _⟩ => ⟨S1x4096, .i32⟩
  | .hbm, ⟨14, _⟩ => ⟨S1x4096, .f32⟩
  | .hbm, ⟨15, _⟩ => ⟨S1x4096, .f32⟩
  | .hbm, ⟨16, _⟩ => ⟨S1x1, .f32⟩
  | .hbm, ⟨17, _⟩ => ⟨S1x1, .i32⟩
  | .hbm, ⟨18, _⟩ => ⟨S1x1, .f32⟩
  | .hbm, ⟨19, _⟩ => ⟨S8192x4096, .f32⟩
  | .local _ .vmem, ⟨0, _⟩ => ⟨S1024x512, .f32⟩
  | .local _ .vmem, ⟨1, _⟩ => ⟨S1024x512, .f32⟩
  | .local _ .vmem, ⟨2, _⟩ => ⟨S1024x512, .bf16⟩
  | .local _ .vmem, ⟨3, _⟩ => ⟨S1024x512, .bf16⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1x1, .f32⟩
  | .local _ .vmem, ⟨11, _⟩ => ⟨S1x1, .f32⟩
  | .local _ .vmem, ⟨12, _⟩ => ⟨S1024x1024, .f32⟩
  | .local _ .vmem, ⟨13, _⟩ => ⟨S1024x1024, .f32⟩
  | .local _ .vmem, ⟨14, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨3, ![8, 4, 8], ![false, false, false]⟩

def k0_cond2 (i : grid0.Coords) : BitVec 1 :=
  let arg2 : BitVec 32 := BitVec.ofNat 32 (i 2).val
  let c7_i32 : BitVec 32 := 7#32
  let v30 : BitVec 1 := Scalar.cmpi .eq arg2 c7_i32
  let v31 : BitVec 32 := Scalar.extui v30
  let c0_i32_12 : BitVec 32 := 0#32
  let v32 : BitVec 1 := Scalar.cmpi .ne v31 c0_i32_12
  v32

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

class Facts₀ : Prop where
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  shapeCasts_S4096_S1x4096 : S4096.ShapeCasts S1x4096
  shapeCasts_S_S1x1 : S_.ShapeCasts S1x1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  shapeCasts_S1024x512_S1024x512 : S1024x512.ShapeCasts S1024x512
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S1024x512_S1024x512_S1024x1024_1_1_0_0_n_n_wf : DotDims.WF S1024x512 S1024x512 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x4096.size a
  hwx0_0 : ∀ i : grid0.Coords, EltTy.bits .f32 = 32 ∨ (Rect.block (s := S8192x4096) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x4096.size a
  hwx0_1 : ∀ i : grid0.Coords, EltTy.bits .bf16 = 32 ∨ (Rect.block (s := S4096x4096) S1024x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x4096.size a
  hwx0_3 : ∀ i : grid0.Coords, EltTy.bits .f32 = 32 ∨ (Rect.block (s := S1x4096) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x4096.size a
  hwx0_4 : ∀ i : grid0.Coords, EltTy.bits .f32 = 32 ∨ (Rect.block (s := S1x4096) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x1024.size a ≤ S8192x4096.size a
  hwx0_7 : ∀ i : grid0.Coords, EltTy.bits .f32 = 32 ∨ (Rect.block (s := S8192x4096) S1024x1024.size (cc0_transform_7 i) (hinb0_7 i)).WholeWords (EltTy.packing .f32)

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v8) S1x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v11) S1024x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩
abbrev S4096x1 : Shape := ⟨2, ![4096, 1]⟩
abbrev S1x4096 : Shape := ⟨2, ![1, 4096]⟩

abbrev nBuf : Space → Nat
  | .hbm => 40
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .i32⟩
  | .hbm, ⟨2, _⟩ => ⟨S4096, .f32⟩
  | .hbm, ⟨3, _⟩ => ⟨S4096, .i32⟩
  | .hbm, ⟨4, _⟩ => ⟨S_, .f32⟩
  | .hbm, ⟨5, _⟩ => ⟨S_, .i32⟩
  | .hbm, ⟨6, _⟩ => ⟨S4096, .i32⟩
  | .hbm, ⟨7, _⟩ => ⟨S4096, .f32⟩
  | .hbm, ⟨8, _⟩ => ⟨S_, .f32⟩
  | .hbm, ⟨9, _⟩ => ⟨S8192x4096, .f32⟩
  | .hbm, ⟨10, _⟩ => ⟨S8192x4096, .f32⟩
  | .hbm, ⟨11, _⟩ => ⟨S8192x4096, .f32⟩
  | .hbm, ⟨12, _⟩ => ⟨S8192x4096, .f32⟩
  | .hbm, ⟨13, _⟩ => ⟨S8192x4096, .f32⟩
  | .hbm, ⟨14, _⟩ => ⟨S_, .i32⟩
  | .hbm, ⟨15, _⟩ => ⟨S_, .i32⟩
  | .hbm, ⟨16, _⟩ => ⟨S_, .f32⟩
  | .hbm, ⟨17, _⟩ => ⟨S8192x4096, .f32⟩
  | .hbm, ⟨18, _⟩ => ⟨S8192x4096, .f32⟩
  | .hbm, ⟨19, _⟩ => ⟨S_, .f32⟩
  | .hbm, ⟨20, _⟩ => ⟨S8192x4096, .f32⟩
  | .hbm, ⟨21, _⟩ => ⟨S8192x4096, .f32⟩
  | .hbm, ⟨22, _⟩ => ⟨S8192x4096, .f32⟩
  | .hbm, ⟨23, _⟩ => ⟨S8192x4096, .f32⟩
  | .hbm, ⟨24, _⟩ => ⟨S4096x1, .i32⟩
  | .hbm, ⟨25, _⟩ => ⟨S4096x4096, .i32⟩
  | .hbm, ⟨26, _⟩ => ⟨S4096x4096, .i32⟩
  | .hbm, ⟨27, _⟩ => ⟨S4096x4096, .f32⟩
  | .hbm, ⟨28, _⟩ => ⟨S8192x4096, .f32⟩
  | .hbm, ⟨29, _⟩ => ⟨S4096, .f32⟩
  | .hbm, ⟨30, _⟩ => ⟨S4096, .f32⟩
  | .hbm, ⟨31, _⟩ => ⟨S1x4096, .f32⟩
  | .hbm, ⟨32, _⟩ => ⟨S8192x4096, .f32⟩
  | .hbm, ⟨33, _⟩ => ⟨S8192x4096, .f32⟩
  | .hbm, ⟨34, _⟩ => ⟨S4096, .f32⟩
  | .hbm, ⟨35, _⟩ => ⟨S1x4096, .f32⟩
  | .hbm, ⟨36, _⟩ => ⟨S1x4096, .f32⟩
  | .hbm, ⟨37, _⟩ => ⟨S1x4096, .f32⟩
  | .hbm, ⟨38, _⟩ => ⟨S8192x4096, .f32⟩
  | .hbm, ⟨39, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c : Ref sig .tc := ⟨.hbm, 14, rfl⟩
abbrev main_c_0 : Ref sig .tc := ⟨.hbm, 15, rfl⟩
abbrev main_call1_v0 : Ref sig .tc := ⟨.hbm, 16, rfl⟩
abbrev main_call1_v1 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩

abbrev nD : Nat := 1
abbrev τ : Topo := Topo.v7x

variable {F : FTy → Type} [FloatOps F]

class Facts₀ : Prop where
  bcast_S_S8192x4096 : S_.BroadcastsInDim S8192x4096 (![] : Fin 0 → Fin S8192x4096.rank)
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  bcast_S_S4096 : S_.BroadcastsInDim S4096 (![] : Fin 0 → Fin S4096.rank)
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.CaseValues.lean ====
/-
  What each control case of the kernel body leaves behind, as values.

  The body runs in one of three ways at a grid point, by the position kb of the point on the grid's last axis:
  at kb = 0 it resets the accumulator to zero and adds the point's tile product to that; at 0 < kb < 7 it adds the
  tile product to what the point before left; at kb = 7 it does the same and then writes the scaled and biased
  accumulator into the output tile. Each lemma reads the stores one case's run made back as one value.
-/
import proofs.«134481_j60722247631708_1_alg».proof.Proof.Gen.KernelIdeal.Frame
import Idealize.ShloMosaic.Lib.Pipeline.Value
import Idealize.ShloMosaic.Lib.Tactic

noncomputable section

namespace Cert.QLinear.Cases

open Cert.KernelIdeal Cert.KernelIdeal.Gen Idealize.ShloMosaic Idealize.ShloMosaic.TcCoe Idealize.SL.Sem

variable {F : FTy → Type} [FloatOps F]
variable (c : Dev nD) (i : grid0.Coords)
  (arg3 : Memref sig .tc .vmem S1024x512 .f32) (harg3 : arg3.IsWhole)
  (arg4 : Memref sig .tc .vmem S1024x512 .bf16) (harg4 : arg4.IsWhole)
  (arg5 : Memref sig .tc .vmem S1x1024 .f32) (harg5 : arg5.IsWhole)
  (arg6 : Memref sig .tc .vmem S1x1024 .f32) (harg6 : arg6.IsWhole)
  (arg7 : Memref sig .tc .vmem S1x1024 .f32) (harg7 : arg7.IsWhole)
  (arg8 : Memref sig .tc .vmem S1x1 .f32) (harg8 : arg8.IsWhole)
  (arg9 : Memref sig .tc .vmem S1x1 .f32) (harg9 : arg9.IsWhole)
  (arg10 : Memref sig .tc .vmem S1024x1024 .f32) (harg10 : arg10.IsWhole)
  (arg11 : Memref sig .tc .vmem S1024x1024 .f32) (harg11 : arg11.IsWhole)
  (x0 : Vec F S1024x512 .f32) (x1 : Vec F S1024x512 .bf16) (x2 x3 x4 : Vec F S1x1024 .f32) (x5 x6 : Vec F S1x1 .f32)
  (xs0 : Vec F S1024x1024 .f32)

theorem hz : (![0, 0] : Fin 2 → Nat) = fun _ => 0 := funext fun a => by fin_cases a <;> rfl

/-- Middle points: the accumulator ends at the point's accumulation over what it held. -/
theorem scratch_B (hc0 : ¬cond0_0 i) (hc1 : ¬cond0_1 i) :
    sout0_B_0 c i arg3 harg3 arg4 harg4 arg5 harg5 arg6 harg6 arg7 harg7 arg8 harg8 arg9 harg9 arg10 harg10 arg11 harg11 hc0 hc1 x0 x1 x2 x3 x4 x5 x6 xs0
      = k0_pay3 x5 x6 x0 x1 xs0 := by
  unfold sout0_B_0
  rw [View.read_writes_eq_canon _ _ _ (scover0_B_0 c i arg3 harg3 arg4 harg4 arg5 harg5 arg6 harg6 arg7 harg7 arg8 harg8 arg9 harg9 arg10 harg10 arg11 harg11 hc0 hc1 x0 x1 x2 x3 x4 x5 x6 xs0)]
  unfold kernelRun0_B
  dsimp only
  sl_unfold_words
  rw [View.canon_unit_zero hz]
  simp only [View.readAt_eq_ld, harg3.read_unread, harg4.read_unread, harg8.read_unread, harg9.read_unread, harg11.read_unread,
    View.ld_unit_zero (S := S1x1) hz, View.ld_unit_zero (S := S1024x512) hz, View.ld_unit_zero (S := S1024x1024) hz]

/-- First points: the accumulator ends at the point's accumulation over the zero it was reset to. -/
theorem scratch_A (hc0 : cond0_0 i) (hc1 : ¬cond0_1 i) :
    sout0_A_0 c i arg3 harg3 arg4 harg4 arg5 harg5 arg6 harg6 arg7 harg7 arg8 harg8 arg9 harg9 arg10 harg10 arg11 harg11 hc0 hc1 x0 x1 x2 x3 x4 x5 x6
      = k0_pay3 x5 x6 x0 x1 (k0_pay1 (F := F)) := by
  unfold sout0_A_0
  rw [View.read_writes_eq_canon _ _ _ (scover0_A_0 c i arg3 harg3 arg4 harg4 arg5 harg5 arg6 harg6 arg7 harg7 arg8 harg8 arg9 harg9 arg10 harg10 arg11 harg11 hc0 hc1 x0 x1 x2 x3 x4 x5 x6)]
  unfold kernelRun0_A
  dsimp only
  sl_unfold_words
  rw [View.canon_cons_unit_zero (S := S1024x1024) hz, View.readCov_unit_zero (S := S1024x1024) _ hz]
  simp only [View.readAt_eq_ld, harg3.read_unread, harg4.read_unread, harg8.read_unread, harg9.read_unread,
    View.ld_unit_zero (S := S1x1) hz, View.ld_unit_zero (S := S1024x512) hz, View.ld_unit_zero (S := S1024x1024) hz]

/-- Last points: the accumulator ends at the point's accumulation over what it held, -/
theorem scratch_C (hc0 : ¬cond0_0 i) (hc1 : cond0_1 i) :
    sout0_C_0 c i arg3 harg3 arg4 harg4 arg5 harg5 arg6 harg6 arg7 harg7 arg8 harg8 arg9 harg9 arg10 harg10 arg11 harg11 hc0 hc1 x0 x1 x2 x3 x4 x5 x6 xs0
      = k0_pay3 x5 x6 x0 x1 xs0 := by
  unfold sout0_C_0
  rw [View.read_writes_eq_canon _ _ _ (scover0_C_0 c i arg3 harg3 arg4 harg4 arg5 harg5 arg6 harg6 arg7 harg7 arg8 harg8 arg9 harg9 arg10 harg10 arg11 harg11 hc0 hc1 x0 x1 x2 x3 x4 x5 x6 xs0)]
  unfold kernelRun0_C
  dsimp only
  sl_unfold_words
  rw [View.canon_unit_zero hz]
  simp only [View.readAt_eq_ld, harg3.read_unread, harg4.read_unread, harg8.read_unread, harg9.read_unread, harg11.read_unread,
    View.ld_unit_zero (S := S1x1) hz, View.ld_unit_zero (S := S1024x512) hz, View.ld_unit_zero (S := S1024x1024) hz]

/-- and the output tile at the epilogue of that accumulator. -/
theorem output_C (hc0 : ¬cond0_0 i) (hc1 : cond0_1 i) :
    out0_C_7 c i arg3 harg3 arg4 harg4 arg5 harg5 arg6 harg6 arg7 harg7 arg8 harg8 arg9 harg9 arg10 harg10 arg11 harg11 hc0 hc1 x0 x1 x2 x3 x4 x5 x6 xs0
      = k0_pay4 x5 x2 (k0_pay3 x5 x6 x0 x1 xs0) x3 x4 := by
  unfold out0_C_7
  rw [View.read_writes_eq_canon _ _ _ (cover0_C_7 c i arg3 harg3 arg4 harg4 arg5 harg5 arg6 harg6 arg7 harg7 arg8 harg8 arg9 harg9 arg10 harg10 arg11 harg11 hc0 hc1 x0 x1 x2 x3 x4 x5 x6 xs0)]
  unfold kernelRun0_C
  dsimp only
  sl_unfold_words
  rw [View.canon_unit_zero hz, View.readCov_unit_zero (S := S1024x1024) _ hz]
  simp only [View.readAt_eq_ld, harg3.read_unread, harg4.read_unread, harg5.read_unread, harg6.read_unread, harg7.read_unread,
    harg8.read_unread, harg9.read_unread, harg11.read_unread,
    View.ld_unit_zero (S := S1x1) hz, View.ld_unit_zero (S := S1x1024) hz, View.ld_unit_zero (S := S1024x512) hz, View.ld_unit_zero (S := S1024x1024) hz]

end Cert.QLinear.Cases

end
-- ==== Proof.LibSumBlocks.lean ====
/-
  A sum over all rows as a sum over row blocks.

  An array of `A·B` rows walked in `A` consecutive blocks of `B` rows: the sum over all rows of any quantity in a
  commutative monoid is the sum over the blocks of the sums inside each block, row `k·B + p` being row `p` of block
  `k`. A second form has the block index run over a range of naturals with a guard, the shape an induction over
  grid points produces. Generic in `A`, `B` and the monoid.
-/
import Mathlib.Algebra.BigOperators.Fin
import Mathlib.Logic.Equiv.Fin.Basic

namespace Cert.LibSumBlocks

open scoped BigOperators

variable {M : Type*} [AddCommMonoid M]

theorem row_lt {A B : ℕ} (k : Fin A) (p : Fin B) : k.val * B + p.val < A * B := by
  have hk := k.isLt
  have hp := p.isLt
  have h1 : k.val * B + p.val < k.val * B + B := by omega
  have h2 : k.val * B + B = (k.val + 1) * B := (Nat.succ_mul k.val B).symm
  have h3 : (k.val + 1) * B ≤ A * B := Nat.mul_le_mul_right B hk
  omega

/-- The sum over all `A·B` rows is the sum over blocks of the sums inside the blocks. -/
theorem sum_blocks (A B : ℕ) (f : Fin (A * B) → M) :
    ∑ r : Fin (A * B), f r = ∑ k : Fin A, ∑ p : Fin B, f ⟨k.val * B + p.val, row_lt k p⟩ := by
  rw [← Equiv.sum_comp finProdFinEquiv f, Fintype.sum_prod_type]
  refine Finset.sum_congr rfl fun k _ => Finset.sum_congr rfl fun p _ => congrArg f (Fin.ext ?_)
  show p.val + B * k.val = k.val * B + p.val
  rw [Nat.mul_comm, Nat.add_comm]

/-- The same with the block index running over a range of naturals under a guard. -/
theorem sum_blocks_range (A B : ℕ) (f : Fin (A * B) → M) :
    ∑ r : Fin (A * B), f r
      = ∑ k ∈ Finset.range A, if h : k < A then ∑ p : Fin B, f ⟨k * B + p.val, row_lt ⟨k, h⟩ p⟩ else 0 := by
  rw [sum_blocks, Finset.sum_range]
  refine Finset.sum_congr rfl fun k _ => ?_
  rw [dif_pos k.isLt]

end Cert.LibSumBlocks
-- ==== Proof.QuantSpec.lean ====
/-
  The mathematics of a quantized linear layer, over the extended reals.

  An activation x is quantized to  q(x) = min(127, max(-128, roundeven(x / s) + z)) - z  with one scale s and one
  zero point z for the whole tensor; a weight word is corrected by its output channel's zero point and read as the
  signed integer it is; the layer's entry (r, n) is

      (sum over k < 4096 of q(x[r,k]) * w[n,k]) * (s * ws[n]) + b[n] * bs[n].

  The contraction over the 4096 input channels may be walked in 8 consecutive blocks of 512: only commutativity and
  associativity of the extended reals' addition are used, so no finiteness is needed anywhere.
-/
import Idealize.ShloMosaic.PureOps.Ideal
import Idealize.ShloMosaic.Lib.ValueIdx
import proofs.«134481_j60722247631708_1_alg».proof.Proof.LibSumBlocks

noncomputable section

namespace Cert.QLinear

open Idealize.ShloMosaic Idealize.ShloMosaic.ValueIdx
open scoped BigOperators

abbrev SX : Shape := ⟨2, ![8192, 4096]⟩
abbrev SW : Shape := ⟨2, ![4096, 4096]⟩
abbrev SV : Shape := ⟨1, ![4096]⟩
abbrev S0 : Shape := ⟨0, ![]⟩

/-- A 32-bit word read as the signed integer it is, as an extended real. -/
abbrev toR (b : BitVec 32) : EReal := ((b.toInt : ℝ) : EReal)

/-- The activation quantizer: round x / s to the nearest integer (ties to even), shift by the zero point, clamp to
    the signed 8-bit range, shift back. -/
def quant (s z x : EReal) : EReal :=
  min (toR 127#32) (max (toR 4294967168#32) (Ideal.liftRound Ideal.roundHalfEven (Ideal.div x s) + z)) - z

/-- One product of the contraction, as a total function of the input channel's number. -/
def term (X : SX.Idx → EReal) (Wq : SW.Idx → BitVec 32) (Wz : SV.Idx → BitVec 32) (s z : EReal)
    (r : Fin 8192) (n : Fin 4096) (k : ℕ) : EReal :=
  if h : k < 4096 then quant s z (X (ix2 r ⟨k, h⟩)) * toR (IntOp.subi (Wq (ix2 n ⟨k, h⟩)) (Wz (ix1 n))) else 0

/-- The contraction restricted to the first `j` blocks of 512 input channels. -/
def partialDot (X : SX.Idx → EReal) (Wq : SW.Idx → BitVec 32) (Wz : SV.Idx → BitVec 32) (s z : EReal)
    (r : Fin 8192) (n : Fin 4096) (j : ℕ) : EReal :=
  ∑ kb ∈ Finset.range j, ∑ kk : Fin 512, term X Wq Wz s z r n (kb * 512 + kk.val)

/-- Entry (r, n) of the layer's output. -/
def entry (X : SX.Idx → EReal) (Wq : SW.Idx → BitVec 32) (Ws : SV.Idx → EReal) (Wz : SV.Idx → BitVec 32)
    (s : S0.Idx → EReal) (zq : S0.Idx → BitVec 32) (Bq : SV.Idx → BitVec 32) (Bs : SV.Idx → EReal)
    (r : Fin 8192) (n : Fin 4096) : EReal :=
  (∑ k : Fin 4096, term X Wq Wz (s ix0) (toR (zq ix0)) r n k.val) * (s ix0 * Ws (ix1 n))
    + toR (Bq (ix1 n)) * Bs (ix1 n)

/-- The layer's output as one array. -/
def layer (X : SX.Idx → EReal) (Wq : SW.Idx → BitVec 32) (Ws : SV.Idx → EReal) (Wz : SV.Idx → BitVec 32)
    (s : S0.Idx → EReal) (zq : S0.Idx → BitVec 32) (Bq : SV.Idx → BitVec 32) (Bs : SV.Idx → EReal) : SX.Idx → EReal :=
  fun i => entry X Wq Ws Wz s zq Bq Bs (i 0) (i 1)

theorem layer_ix2 (X : SX.Idx → EReal) (Wq : SW.Idx → BitVec 32) (Ws : SV.Idx → EReal) (Wz : SV.Idx → BitVec 32)
    (s : S0.Idx → EReal) (zq : S0.Idx → BitVec 32) (Bq : SV.Idx → BitVec 32) (Bs : SV.Idx → EReal)
    (r : Fin 8192) (n : Fin 4096) :
    layer X Wq Ws Wz s zq Bq Bs (ix2 r n) = entry X Wq Ws Wz s zq Bq Bs r n := rfl

/-- A sum over the 4096 input channels is the sum over 8 consecutive blocks of 512 of the sums inside the blocks. -/
theorem sum_channels (f : ℕ → EReal) :
    ∑ k : Fin 4096, f k.val = ∑ kb ∈ Finset.range 8, ∑ kk : Fin 512, f (kb * 512 + kk.val) := by
  have h := Cert.LibSumBlocks.sum_blocks_range 8 512 (fun r : Fin (8 * 512) => f r.val)
  refine h.trans (Finset.sum_congr rfl fun kb hkb => ?_)
  rw [dif_pos (Finset.mem_range.mp hkb)]

/-- All eight blocks together are the whole contraction. -/
theorem partialDot_all (X : SX.Idx → EReal) (Wq : SW.Idx → BitVec 32) (Wz : SV.Idx → BitVec 32) (s z : EReal)
    (r : Fin 8192) (n : Fin 4096) :
    partialDot X Wq Wz s z r n 8 = ∑ k : Fin 4096, term X Wq Wz s z r n k.val :=
  (sum_channels (term X Wq Wz s z r n)).symm

/-- One more block. -/
theorem partialDot_succ (X : SX.Idx → EReal) (Wq : SW.Idx → BitVec 32) (Wz : SV.Idx → BitVec 32) (s z : EReal)
    (r : Fin 8192) (n : Fin 4096) (j : ℕ) :
    partialDot X Wq Wz s z r n (j + 1)
      = partialDot X Wq Wz s z r n j + ∑ kk : Fin 512, term X Wq Wz s z r n (j * 512 + kk.val) :=
  Finset.sum_range_succ _ j

theorem partialDot_zero (X : SX.Idx → EReal) (Wq : SW.Idx → BitVec 32) (Wz : SV.Idx → BitVec 32) (s z : EReal)
    (r : Fin 8192) (n : Fin 4096) : partialDot X Wq Wz s z r n 0 = 0 :=
  Finset.sum_range_zero _

end Cert.QLinear

end
-- ==== Proof.BodyAtEntry.lean ====
/-
  The kernel body's arithmetic, read at one entry.

  One grid point loads a 1024 x 512 tile of activations and a 1024 x 512 tile of corrected weights, quantizes the
  activations, and adds to entry (p, q) of its 1024 x 1024 accumulator the sum over the tile's 512 input channels of
  quantized activation (p, kk) times weight (q, kk): the matrix product contracts the second axis of both tiles. The
  last point of a row of the grid scales the accumulator by s * ws[q] and adds b[q] * bs[q], the per-channel vectors
  being one-row tiles broadcast down the rows.
-/
import proofs.«134481_j60722247631708_1_alg».proof.Proof.Gen.KernelIdeal.Skeleton
import proofs.«134481_j60722247631708_1_alg».proof.Proof.QuantSpec
import Idealize.ShloMosaic.Lib.ValueIdx
import Idealize.ShloMosaic.Lib.ValueLayout
import Idealize.ShloMosaic.Lib.Pipeline.Value
import Idealize.ShloMosaic.PureOps.Ideal.Laws

noncomputable section

namespace Cert.QLinear.Body

open Cert.KernelIdeal Cert.KernelIdeal.Gen Idealize.ShloMosaic Idealize.ShloMosaic.ValueIdx Cert.QLinear
open scoped BigOperators

/-- The accumulator's reset value is zero at every entry. -/
theorem reset_apply (j : S1024x1024.Idx) : k0_pay1 (F := Ideal) j = 0 := by
  unfold k0_pay1
  refine (congrFun (shapeCast_self _ _) j).trans ?_
  exact Ideal.ofBits_zero_f32

/-- The one entry of a one-entry tile. -/
theorem extract_one {α : Type} (v : S1x1.Idx → α) (h : ∀ a, (![0, 0] : Fin 2 → Nat) a < S1x1.size a) :
    extractAt ![0, 0] v h = v (ix2 (0 : Fin 1) (0 : Fin 1)) :=
  congrArg v (funext fun a => Fin.ext (by
    match a with
    | ⟨0, _⟩ => rfl
    | ⟨1, _⟩ => rfl))

theorem lhs_row (i : S1024x1024.Idx) (g : dot_S1024x512_S1024x512_S1024x1024_1_1_0_0_n_n.contr.Idx) :
    (dot_S1024x512_S1024x512_S1024x1024_1_1_0_0_n_n.lhsIdx i g 0).val = (i 0).val := by
  unfold DotDims.lhsIdx
  rw [dif_neg (show ¬(0 : Fin S1024x512.rank) ∈ dot_S1024x512_S1024x512_S1024x1024_1_1_0_0_n_n.lhsBatch by decide),
    dif_pos (show (0 : Fin S1024x512.rank) ∈ dot_S1024x512_S1024x512_S1024x1024_1_1_0_0_n_n.lhsNonContracting by decide)]
  rfl
theorem lhs_chan (i : S1024x1024.Idx) (g : dot_S1024x512_S1024x512_S1024x1024_1_1_0_0_n_n.contr.Idx) :
    (dot_S1024x512_S1024x512_S1024x1024_1_1_0_0_n_n.lhsIdx i g 1).val = (g ⟨0, by decide⟩).val :=
  dot_S1024x512_S1024x512_S1024x1024_1_1_0_0_n_n.lhsIdx_val_of_single rfl i g
theorem rhs_row (i : S1024x1024.Idx) (g : dot_S1024x512_S1024x512_S1024x1024_1_1_0_0_n_n.contr.Idx) :
    (dot_S1024x512_S1024x512_S1024x1024_1_1_0_0_n_n.rhsIdx i g 0).val = (i 1).val := by
  unfold DotDims.rhsIdx
  rw [dif_neg (show ¬(0 : Fin S1024x512.rank) ∈ dot_S1024x512_S1024x512_S1024x1024_1_1_0_0_n_n.rhsBatch by decide),
    dif_pos (show (0 : Fin S1024x512.rank) ∈ dot_S1024x512_S1024x512_S1024x1024_1_1_0_0_n_n.rhsNonContracting by decide)]
  rfl
theorem rhs_chan (i : S1024x1024.Idx) (g : dot_S1024x512_S1024x512_S1024x1024_1_1_0_0_n_n.contr.Idx) :
    (dot_S1024x512_S1024x512_S1024x1024_1_1_0_0_n_n.rhsIdx i g 1).val = (g ⟨0, by decide⟩).val :=
  dot_S1024x512_S1024x512_S1024x1024_1_1_0_0_n_n.rhsIdx_val_of_single rfl i g

/-- A product of two tiles into the zero accumulator, contracted along the second axis of both, at entry (p, q):
    the left factor is read at (p, kk), the right at (q, kk). -/
theorem tileDot_apply (l : FVec Ideal S1024x512 .bf16) (r : FVec Ideal S1024x512 .bf16) (p q : Fin 1024) :
    matmul dot_S1024x512_S1024x512_S1024x1024_1_1_0_0_n_n none l r (constant S1024x1024 .f32 0x00000000#32) (ix2 p q)
      = ∑ kk : Fin 512, l (ix2 p kk) * r (ix2 q kk) := by
  refine (Ideal.matmul_constant_zero_apply dot_S1024x512_S1024x512_S1024x1024_1_1_0_0_n_n none l r (ix2 p q)).trans ?_
  rw [← Equiv.sum_comp (contrEquiv1 dot_S1024x512_S1024x512_S1024x1024_1_1_0_0_n_n 512 rfl rfl).symm]
  refine Finset.sum_congr rfl fun kk _ => ?_
  have hk := contrEquiv1_symm_val dot_S1024x512_S1024x512_S1024x1024_1_1_0_0_n_n 512 rfl rfl kk
  have el : dot_S1024x512_S1024x512_S1024x1024_1_1_0_0_n_n.lhsIdx (ix2 p q)
      ((contrEquiv1 dot_S1024x512_S1024x512_S1024x1024_1_1_0_0_n_n 512 rfl rfl).symm kk) = ix2 p kk :=
    funext fun a => Fin.ext (by
      match a with
      | ⟨0, _⟩ => exact lhs_row _ _
      | ⟨1, _⟩ => exact (lhs_chan _ _).trans hk)
  have er : dot_S1024x512_S1024x512_S1024x1024_1_1_0_0_n_n.rhsIdx (ix2 p q)
      ((contrEquiv1 dot_S1024x512_S1024x512_S1024x1024_1_1_0_0_n_n 512 rfl rfl).symm kk) = ix2 q kk :=
    funext fun a => Fin.ext (by
      match a with
      | ⟨0, _⟩ => exact rhs_row _ _
      | ⟨1, _⟩ => exact (rhs_chan _ _).trans hk)
  rw [el, er]

/-- One point's accumulation at entry (p, q), the two scalars as the body extracts them. -/
theorem accumulate_apply' (v3 v5 : Vec Ideal S1x1 .f32) (v7 : Vec Ideal S1024x512 .f32) (v22 : Vec Ideal S1024x512 .bf16)
    (v24 : Vec Ideal S1024x1024 .f32) (p q : Fin 1024) :
    k0_pay3 v3 v5 v7 v22 v24 (ix2 p q)
      = v24 (ix2 p q) + ∑ kk : Fin 512,
          quant (extractAt ![0, 0] v3 inpos_S1x1_p0_0) (extractAt ![0, 0] v5 inpos_S1x1_p0_0) (v7 (ix2 p kk)) * v22 (ix2 q kk) := by
  unfold k0_pay3 k0_pay2
  dsimp only
  refine (congrFun (shapeCast_self _ _) (ix2 p q)).trans ?_
  refine congrArg (v24 (ix2 p q) + ·) ?_
  refine (tileDot_apply _ _ p q).trans ?_
  refine Finset.sum_congr rfl fun kk _ => ?_
  refine congrArg₂ (· * ·) ?_ ?_
  · rfl
  · exact congrFun (shapeCast_self _ _) (ix2 q kk)

/-- One point's accumulation at entry (p, q): what the accumulator held plus the tile's 512 products of a quantized
    activation and a weight. -/
theorem accumulate_apply (v3 v5 : Vec Ideal S1x1 .f32) (v7 : Vec Ideal S1024x512 .f32) (v22 : Vec Ideal S1024x512 .bf16)
    (v24 : Vec Ideal S1024x1024 .f32) (p q : Fin 1024) :
    k0_pay3 v3 v5 v7 v22 v24 (ix2 p q)
      = v24 (ix2 p q) + ∑ kk : Fin 512,
          quant (v3 (ix2 (0 : Fin 1) (0 : Fin 1))) (v5 (ix2 (0 : Fin 1) (0 : Fin 1))) (v7 (ix2 p kk)) * v22 (ix2 q kk) := by
  rw [← extract_one v3 inpos_S1x1_p0_0, ← extract_one v5 inpos_S1x1_p0_0]
  exact accumulate_apply' v3 v5 v7 v22 v24 p q

/-- The last point's epilogue at entry (p, q), the scalar as the body extracts it. -/
theorem epilogue_apply' (v3 : Vec Ideal S1x1 .f32) (v33 : Vec Ideal S1x1024 .f32) (v37 : Vec Ideal S1024x1024 .f32)
    (v40 v42 : Vec Ideal S1x1024 .f32) (p q : Fin 1024) :
    k0_pay4 v3 v33 v37 v40 v42 (ix2 p q)
      = v37 (ix2 p q) * (extractAt ![0, 0] v3 inpos_S1x1_p0_0 * v33 (ix2 (0 : Fin 1) q))
        + v40 (ix2 (0 : Fin 1) q) * v42 (ix2 (0 : Fin 1) q) := by
  unfold k0_pay4 k0_pay2
  dsimp only
  refine congrArg₂ (· + ·) (congrArg (v37 (ix2 p q) * ·) ?_) ?_
  · refine (broadcastTo_1b_ab_apply _ _ p q).trans ?_
    exact congrArg (extractAt ![0, 0] v3 inpos_S1x1_p0_0 * ·) (congrFun (shapeCast_self _ _) (ix2 (0 : Fin 1) q))
  · refine (broadcastTo_1b_ab_apply _ _ p q).trans ?_
    exact congrArg₂ (· * ·) (congrFun (shapeCast_self _ _) (ix2 (0 : Fin 1) q)) (congrFun (shapeCast_self _ _) (ix2 (0 : Fin 1) q))

/-- The last point's epilogue at entry (p, q): the accumulator scaled by s * ws[q], plus b[q] * bs[q]. -/
theorem epilogue_apply (v3 : Vec Ideal S1x1 .f32) (v33 : Vec Ideal S1x1024 .f32) (v37 : Vec Ideal S1024x1024 .f32)
    (v40 v42 : Vec Ideal S1x1024 .f32) (p q : Fin 1024) :
    k0_pay4 v3 v33 v37 v40 v42 (ix2 p q)
      = v37 (ix2 p q) * (v3 (ix2 (0 : Fin 1) (0 : Fin 1)) * v33 (ix2 (0 : Fin 1) q))
        + v40 (ix2 (0 : Fin 1) q) * v42 (ix2 (0 : Fin 1) q) := by
  rw [← extract_one v3 inpos_S1x1_p0_0]
  exact epilogue_apply' v3 v33 v37 v40 v42 p q

end Cert.QLinear.Body

end
-- ==== Proof.Tiles.lean ====
/-
  The tiles a grid point reads, as entries of the argument arrays.

  The grid has 8 x 4 x 8 points; point number t has row block t / 32, column block (t / 8) % 4 and contraction
  block t % 8. Its activation tile is rows 1024 (t / 32) + p and input channels 512 (t % 8) + kk of x; its weight
  tile is output channels 1024 ((t / 8) % 4) + q and the same input channels of the zero-point-corrected weight
  words converted to numbers; the per-channel vectors arrive as one-row tiles of the column block; the two scalars
  as one-entry tiles. The arrays the tiles are cut from are what the host lines before the call computed from the
  arguments: a subtraction of the broadcast zero points and an integer-to-float conversion, reshapes to one row.
-/
import proofs.«134481_j60722247631708_1_alg».proof.Proof.Gen.KernelIdeal.Frame
import proofs.«134481_j60722247631708_1_alg».proof.Proof.QuantSpec
import Idealize.ShloMosaic.Lib.Pipeline.Value
import Idealize.ShloMosaic.Lib.ValueIdx
import Idealize.ShloMosaic.Lib.ValueLayout
import Idealize.ShloMosaic.Lib.StableHlo.Run

noncomputable section

namespace Cert.QLinear.Tiles

open Cert.KernelIdeal Cert.KernelIdeal.Gen Idealize.ShloMosaic Idealize.ShloMosaic.TcCoe Idealize.SL.Sem
open Idealize.ShloMosaic.ValueIdx Cert.QLinear

variable (m : (ℓ : Loc nD τ sig) → Buf (Elt Ideal) ℓ)

/-- Where each window's block sits at grid point t, decided over the 256 points. -/
theorem block_index : ∀ t : Fin cfg0.N,
    win0_0.index t (0 : Fin 2) = t.val / 32 ∧ win0_0.index t (1 : Fin 2) = t.val % 8
    ∧ win0_1.index t (0 : Fin 2) = t.val / 8 % 4 ∧ win0_1.index t (1 : Fin 2) = t.val % 8
    ∧ win0_2.index t (0 : Fin 2) = 0 ∧ win0_2.index t (1 : Fin 2) = t.val / 8 % 4
    ∧ win0_3.index t (0 : Fin 2) = 0 ∧ win0_3.index t (1 : Fin 2) = t.val / 8 % 4
    ∧ win0_4.index t (0 : Fin 2) = 0 ∧ win0_4.index t (1 : Fin 2) = t.val / 8 % 4
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val / 32 ∧ win0_7.index t (1 : Fin 2) = t.val / 8 % 4 :=
  (by decide +kernel : ∀ t : Fin grid0.N, _)

/-! ## The arrays the host lines before the call leave -/

/-- The weight operand: the weight words less their channel's zero point, converted to numbers. -/
theorem weights_eq (c : Dev nD) :
    (V m c main_v3 : S4096x4096.Idx → Ideal .bf16)
      = sitofp (F := Ideal) .bf16 (subi (m ((c : Thread nD τ).loc main_arg1))
          (broadcastInDim S4096x4096 ![0, 1] bcast_S4096x1_S4096x4096_0_1
            (broadcastInDim S4096x1 ![0] bcast_S4096_S4096x1_0 (m ((c : Thread nD τ).loc main_arg3))))) := by
  dsimp only [V, hostOps0]; after_results; all_goals rfl

theorem wscale_eq (c : Dev nD) :
    (V m c main_v4 : S1x4096.Idx → Ideal .f32)
      = shapeCast S1x4096 (m ((c : Thread nD τ).loc main_arg2)) shapeCasts_S4096_S1x4096 := by
  dsimp only [V, hostOps0]; after_results; all_goals rfl

theorem bias_eq (c : Dev nD) :
    (V m c main_v6 : S1x4096.Idx → Ideal .f32)
      = sitofp (F := Ideal) .f32 (shapeCast S1x4096 (m ((c : Thread nD τ).loc main_arg6)) shapeCasts_S4096_S1x4096) := by
  dsimp only [V, hostOps0]; after_results; all_goals rfl

theorem bscale_eq (c : Dev nD) :
    (V m c main_v7 : S1x4096.Idx → Ideal .f32)
      = shapeCast S1x4096 (m ((c : Thread nD τ).loc main_arg7)) shapeCasts_S4096_S1x4096 := by
  dsimp only [V, hostOps0]; after_results; all_goals rfl

theorem scale_eq (c : Dev nD) :
    (V m c main_v8 : S1x1.Idx → Ideal .f32)
      = shapeCast S1x1 (m ((c : Thread nD τ).loc main_arg4)) shapeCasts_S_S1x1 := by
  dsimp only [V, hostOps0]; after_results; all_goals rfl

theorem zero_eq (c : Dev nD) :
    (V m c main_v10 : S1x1.Idx → Ideal .f32)
      = sitofp (F := Ideal) .f32 (shapeCast S1x1 (m ((c : Thread nD τ).loc main_arg5)) shapeCasts_S_S1x1) := by
  dsimp only [V, hostOps0]; after_results; all_goals rfl

/-! ## Layout operations of the host lines, read at an entry -/

/-- A per-channel vector broadcast to a column and then across the rows reads its channel. -/
theorem channel_broadcast_apply {α : Type} (Z : S4096.Idx → α) (n k : Fin 4096) :
    broadcastInDim S4096x4096 ![0, 1] bcast_S4096x1_S4096x4096_0_1
      (broadcastInDim S4096x1 ![0] bcast_S4096_S4096x1_0 Z) (ix2 n k) = Z (ix1 n) := by
  refine (broadcastInDim_apply _ bcast_S4096x1_S4096x4096_0_1 _ (ix2 n k) (ix2 n (0 : Fin 1)) (fun a => ?_)).trans ?_
  · match a with
    | ⟨0, _⟩ => show n.val = if (4096 : Nat) = 1 then 0 else n.val; rw [if_neg (by decide)]
    | ⟨1, _⟩ => show 0 = if (1 : Nat) = 1 then 0 else k.val; rw [if_pos rfl]
  · refine broadcastInDim_apply _ bcast_S4096_S4096x1_0 Z (ix2 n (0 : Fin 1)) (ix1 n) (fun a => ?_)
    match a with
    | ⟨0, _⟩ => show n.val = if (4096 : Nat) = 1 then 0 else n.val; rw [if_neg (by decide)]

/-- A scalar reshaped to one entry reads the scalar. -/
theorem scalar_reshape_apply {α : Type} (x : S_.Idx → α) (u v : Fin 1) :
    shapeCast S1x1 x shapeCasts_S_S1x1 (ix2 u v) = x ix0 := by
  refine shapeCast_apply x shapeCasts_S_S1x1 (ix2 u v) ix0 ?_
  have hu : u.val = 0 := by omega
  have hv : v.val = 0 := by omega
  rw [Shape.rowMajor_val_two]
  show (Shape.rowMajorPi _ _).val = u.val * 1 + v.val
  rw [Shape.rowMajorPi_zero, hu, hv]

/-! ## The tiles -/

/-- The activation tile. -/
theorem xTile (c : Dev nD) (t : Fin cfg0.N) (p : Fin 1024) (kk : Fin 512) (r : Fin 8192) (k : Fin 4096)
    (hr : r.val = 1024 * (t.val / 32) + p.val) (hk : k.val = 512 * (t.val % 8) + kk.val) :
    (iblk m c 0 t : Vec Ideal S1024x512 .f32) (ix2 p kk) = m ((c : Thread nD τ).loc main_arg0) (ix2 r k) := by
  obtain ⟨e0, e1, -⟩ := block_index t
  unfold iblk
  rw [View.read_apply]
  show V m c main_arg0 (((cfg0.win 0).blk t).view.emb (ix2 p kk)) = _
  rw [V_main_arg0]
  refine congrArg _ (funext fun a => Fin.ext ?_)
  match a with
  | ⟨0, _⟩ => show win0_0.index t (0 : Fin 2) * 1024 + 1 * p.val = r.val; omega
  | ⟨1, _⟩ => show win0_0.index t (1 : Fin 2) * 512 + 1 * kk.val = k.val; omega

/-- The weight tile. -/
theorem wTile (c : Dev nD) (t : Fin cfg0.N) (q : Fin 1024) (kk : Fin 512) (n k : Fin 4096)
    (hn : n.val = 1024 * (t.val / 8 % 4) + q.val) (hk : k.val = 512 * (t.val % 8) + kk.val) :
    (iblk m c 1 t : Vec Ideal S1024x512 .bf16) (ix2 q kk)
      = toR (IntOp.subi (m ((c : Thread nD τ).loc main_arg1) (ix2 n k)) (m ((c : Thread nD τ).loc main_arg3) (ix1 n))) := by
  obtain ⟨-, -, e0, e1, -⟩ := block_index t
  unfold iblk
  rw [View.read_apply]
  show V m c main_v3 (((cfg0.win 1).blk t).view.emb (ix2 q kk)) = _
  have he : ((cfg0.win 1).blk t).view.emb (ix2 q kk) = ix2 n k := funext fun a => Fin.ext (by
    match a with
    | ⟨0, _⟩ => show win0_1.index t (0 : Fin 2) * 1024 + 1 * q.val = n.val; omega
    | ⟨1, _⟩ => show win0_1.index t (1 : Fin 2) * 512 + 1 * kk.val = k.val; omega)
  rw [he, weights_eq]
  show toR (IntOp.subi (m ((c : Thread nD τ).loc main_arg1) (ix2 n k)) _) = _
  rw [channel_broadcast_apply]

/-- The weight scales' tile. -/
theorem wscaleTile (c : Dev nD) (t : Fin cfg0.N) (q : Fin 1024) (n : Fin 4096)
    (hn : n.val = 1024 * (t.val / 8 % 4) + q.val) :
    (iblk m c 2 t : Vec Ideal S1x1024 .f32) (ix2 (0 : Fin 1) q) = m ((c : Thread nD τ).loc main_arg2) (ix1 n) := by
  obtain ⟨-, -, -, -, e0, e1, -⟩ := block_index t
  unfold iblk
  rw [View.read_apply]
  show V m c main_v4 (((cfg0.win 2).blk t).view.emb (ix2 (0 : Fin 1) q)) = _
  have he : ((cfg0.win 2).blk t).view.emb (ix2 (0 : Fin 1) q) = ix2 (0 : Fin 1) n := funext fun a => Fin.ext (by
    match a with
    | ⟨0, _⟩ => show win0_2.index t (0 : Fin 2) * 1 + 1 * 0 = 0; omega
    | ⟨1, _⟩ => show win0_2.index t (1 : Fin 2) * 1024 + 1 * q.val = n.val; omega)
  rw [he, wscale_eq]
  exact shapeCast_a_1a_apply _ _ 0 n

/-- The bias words' tile, converted to numbers. -/
theorem biasTile (c : Dev nD) (t : Fin cfg0.N) (q : Fin 1024) (n : Fin 4096)
    (hn : n.val = 1024 * (t.val / 8 % 4) + q.val) :
    (iblk m c 3 t : Vec Ideal S1x1024 .f32) (ix2 (0 : Fin 1) q) = toR (m ((c : Thread nD τ).loc main_arg6) (ix1 n)) := by
  obtain ⟨-, -, -, -, -, -, e0, e1, -⟩ := block_index t
  unfold iblk
  rw [View.read_apply]
  show V m c main_v6 (((cfg0.win 3).blk t).view.emb (ix2 (0 : Fin 1) q)) = _
  have he : ((cfg0.win 3).blk t).view.emb (ix2 (0 : Fin 1) q) = ix2 (0 : Fin 1) n := funext fun a => Fin.ext (by
    match a with
    | ⟨0, _⟩ => show win0_3.index t (0 : Fin 2) * 1 + 1 * 0 = 0; omega
    | ⟨1, _⟩ => show win0_3.index t (1 : Fin 2) * 1024 + 1 * q.val = n.val; omega)
  rw [he, bias_eq]
  show toR (shapeCast S1x4096 (m ((c : Thread nD τ).loc main_arg6)) shapeCasts_S4096_S1x4096 (ix2 (0 : Fin 1) n)) = _
  rw [shapeCast_a_1a_apply]

/-- The bias scales' tile. -/
theorem bscaleTile (c : Dev nD) (t : Fin cfg0.N) (q : Fin 1024) (n : Fin 4096)
    (hn : n.val = 1024 * (t.val / 8 % 4) + q.val) :
    (iblk m c 4 t : Vec Ideal S1x1024 .f32) (ix2 (0 : Fin 1) q) = m ((c : Thread nD τ).loc main_arg7) (ix1 n) := by
  obtain ⟨-, -, -, -, -, -, -, -, e0, e1, -⟩ := block_index t
  unfold iblk
  rw [View.read_apply]
  show V m c main_v7 (((cfg0.win 4).blk t).view.emb (ix2 (0 : Fin 1) q)) = _
  have he : ((cfg0.win 4).blk t).view.emb (ix2 (0 : Fin 1) q) = ix2 (0 : Fin 1) n := funext fun a => Fin.ext (by
    match a with
    | ⟨0, _⟩ => show win0_4.index t (0 : Fin 2) * 1 + 1 * 0 = 0; omega
    | ⟨1, _⟩ => show win0_4.index t (1 : Fin 2) * 1024 + 1 * q.val = n.val; omega)
  rw [he, bscale_eq]
  exact shapeCast_a_1a_apply _ _ 0 n

/-- The activation scale's one-entry tile. -/
theorem scaleTile (c : Dev nD) (t : Fin cfg0.N) :
    (iblk m c 5 t : Vec Ideal S1x1 .f32) (ix2 (0 : Fin 1) (0 : Fin 1)) = m ((c : Thread nD τ).loc main_arg4) ix0 := by
  obtain ⟨-, -, -, -, -, -, -, -, -, -, e0, e1, -⟩ := block_index t
  unfold iblk
  rw [View.read_apply]
  show V m c main_v8 (((cfg0.win 5).blk t).view.emb (ix2 (0 : Fin 1) (0 : Fin 1))) = _
  have he : ((cfg0.win 5).blk t).view.emb (ix2 (0 : Fin 1) (0 : Fin 1)) = ix2 (0 : Fin 1) (0 : Fin 1) := funext fun a => Fin.ext (by
    match a with
    | ⟨0, _⟩ => show win0_5.index t (0 : Fin 2) * 1 + 1 * 0 = 0; omega
    | ⟨1, _⟩ => show win0_5.index t (1 : Fin 2) * 1 + 1 * 0 = 0; omega)
  rw [he, scale_eq]
  exact scalar_reshape_apply _ 0 0

/-- The activation zero point's one-entry tile, converted to a number. -/
theorem zeroTile (c : Dev nD) (t : Fin cfg0.N) :
    (iblk m c 6 t : Vec Ideal S1x1 .f32) (ix2 (0 : Fin 1) (0 : Fin 1)) = toR (m ((c : Thread nD τ).loc main_arg5) ix0) := by
  obtain ⟨-, -, -, -, -, -, -, -, -, -, -, -, e0, e1, -⟩ := block_index t
  unfold iblk
  rw [View.read_apply]
  show V m c main_v10 (((cfg0.win 6).blk t).view.emb (ix2 (0 : Fin 1) (0 : Fin 1))) = _
  have he : ((cfg0.win 6).blk t).view.emb (ix2 (0 : Fin 1) (0 : Fin 1)) = ix2 (0 : Fin 1) (0 : Fin 1) := funext fun a => Fin.ext (by
    match a with
    | ⟨0, _⟩ => show win0_6.index t (0 : Fin 2) * 1 + 1 * 0 = 0; omega
    | ⟨1, _⟩ => show win0_6.index t (1 : Fin 2) * 1 + 1 * 0 = 0; omega)
  rw [he, zero_eq]
  show toR (shapeCast S1x1 (m ((c : Thread nD τ).loc main_arg5)) shapeCasts_S_S1x1 (ix2 (0 : Fin 1) (0 : Fin 1))) = _
  rw [scalar_reshape_apply]

end Cert.QLinear.Tiles

end
-- ==== Proof.Accumulation.lean ====
/-
  The accumulator across the grid, and the output tile.

  Walking the 256 grid points in order, the points t = 8 g + kb (kb = 0 .. 7) of one output tile g are consecutive.
  After point t the accumulator's entry (p, q) is the contraction of row 1024 (t / 32) + p of the quantized
  activations with output channel 1024 ((t / 8) % 4) + q of the weights, restricted to the first kb + 1 blocks of 512
  input channels: by induction on t, the point kb = 0 starting from zero. At kb = 7 all eight blocks are in, which is
  the whole contraction, and the output tile's entry is the layer's entry.
-/
import proofs.«134481_j60722247631708_1_alg».proof.Proof.CaseValues
import proofs.«134481_j60722247631708_1_alg».proof.Proof.BodyAtEntry
import proofs.«134481_j60722247631708_1_alg».proof.Proof.Tiles

noncomputable section

namespace Cert.QLinear.Acc

open Cert.KernelIdeal Cert.KernelIdeal.Gen Idealize.ShloMosaic Idealize.ShloMosaic.TcCoe Idealize.SL.Sem
open Idealize.ShloMosaic.ValueIdx Cert.QLinear Cert.QLinear.Tiles Cert.QLinear.Body Cert.QLinear.Cases
open scoped BigOperators

variable (m : (ℓ : Loc nD τ sig) → Buf (Elt Ideal) ℓ)

/-- One point's accumulation at entry (p, q), in terms of the argument arrays: the accumulator's old entry plus the
    products over the point's block of input channels. -/
theorem step (c : Dev nD) (t : Fin cfg0.N) (acc : Vec Ideal S1024x1024 .f32) (p q : Fin 1024) (r : Fin 8192) (n : Fin 4096)
    (hr : r.val = 1024 * (t.val / 32) + p.val) (hn : n.val = 1024 * (t.val / 8 % 4) + q.val) :
    k0_pay3 (iblk m c 5 t) (iblk m c 6 t) (iblk m c 0 t) (iblk m c 1 t) acc (ix2 p q)
      = acc (ix2 p q) + ∑ kk : Fin 512, term (m ((c : Thread nD τ).loc main_arg0)) (m ((c : Thread nD τ).loc main_arg1)) (m ((c : Thread nD τ).loc main_arg3)) (m ((c : Thread nD τ).loc main_arg4) ix0) (toR (m ((c : Thread nD τ).loc main_arg5) ix0)) r n (t.val % 8 * 512 + kk.val) := by
  refine (accumulate_apply (iblk m c 5 t) (iblk m c 6 t) (iblk m c 0 t) (iblk m c 1 t) acc p q).trans ?_
  refine congrArg (acc (ix2 p q) + ·) (Finset.sum_congr rfl fun kk _ => ?_)
  have hk' : t.val % 8 * 512 + kk.val < 4096 := by have := kk.isLt; omega
  unfold term
  rw [dif_pos hk']
  refine congrArg₂ (· * ·) ?_ ?_
  · rw [scaleTile m c t, zeroTile m c t, xTile m c t p kk r ⟨_, hk'⟩ hr (by show t.val % 8 * 512 + kk.val = _; omega)]
  · exact wTile m c t q kk n ⟨_, hk'⟩ hn (by show t.val % 8 * 512 + kk.val = _; omega)

/-- THE ACCUMULATOR after point n: the contraction over the first n % 8 + 1 blocks of input channels. -/
theorem scratch_after (c : Dev nD) (n : ℕ) : ∀ (h : n < cfg0.N) (p q : Fin 1024) (r : Fin 8192) (cn : Fin 4096),
    r.val = 1024 * (n / 32) + p.val → cn.val = 1024 * (n / 8 % 4) + q.val →
    (outsAt0 m c n h).2 (ix2 p q) = partialDot (m ((c : Thread nD τ).loc main_arg0)) (m ((c : Thread nD τ).loc main_arg1)) (m ((c : Thread nD τ).loc main_arg3)) (m ((c : Thread nD τ).loc main_arg4) ix0) (toR (m ((c : Thread nD τ).loc main_arg5) ix0)) r cn (n % 8 + 1) := by
  induction n using Nat.strong_induction_on with
  | _ n ih =>
    intro h p q r cn hr hcn
    have hN : n < 256 := lt_of_lt_of_eq h (show cfg0.N = 256 from N_0)
    by_cases h0 : n % 8 = 0
    · have h1 : ¬n % 8 = 7 := by omega
      rw [outsAt0_A m c ⟨n, h⟩ h0 h1]
      dsimp only
      refine (congrFun (scratch_A (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) (ms0_6 ⟨n, h⟩) (hs0_6 ⟨n, h⟩) (ms0_7 ⟨n, h⟩) (hs0_7 ⟨n, h⟩) scM0_0 (Memref.isWhole_whole _) (iblk m c 0 ⟨n, h⟩) (iblk m c 1 ⟨n, h⟩) (iblk m c 2 ⟨n, h⟩) (iblk m c 3 ⟨n, h⟩) (iblk m c 4 ⟨n, h⟩) (iblk m c 5 ⟨n, h⟩) (iblk m c 6 ⟨n, h⟩) ((hcond0_0 ⟨n, h⟩).mpr h0) (fun hh => h1 ((hcond0_1 ⟨n, h⟩).mp hh))) (ix2 p q)).trans ?_
      refine (step m c ⟨n, h⟩ _ p q r cn hr hcn).trans ?_
      rw [reset_apply, zero_add, partialDot_succ]
      have e : partialDot (m ((c : Thread nD τ).loc main_arg0)) (m ((c : Thread nD τ).loc main_arg1)) (m ((c : Thread nD τ).loc main_arg3)) (m ((c : Thread nD τ).loc main_arg4) ix0) (toR (m ((c : Thread nD τ).loc main_arg5) ix0)) r cn (n % 8) = 0 := by rw [h0]; exact partialDot_zero _ _ _ _ _ _ _
      rw [e, zero_add]
    · have hpos : 0 < n := by omega
      have hb : n - 1 < cfg0.N := Nat.lt_of_le_of_lt (Nat.sub_le _ _) h
      have ihn := ih (n - 1) (by omega) hb p q r cn (by omega) (by omega)
      have e : (n - 1) % 8 + 1 = n % 8 := by omega
      rw [e] at ihn
      by_cases h1 : n % 8 = 7
      · rw [outsAt0_C m c ⟨n, h⟩ h0 h1]
        dsimp only
        refine (congrFun (scratch_C (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) (ms0_6 ⟨n, h⟩) (hs0_6 ⟨n, h⟩) (ms0_7 ⟨n, h⟩) (hs0_7 ⟨n, h⟩) scM0_0 (Memref.isWhole_whole _) (iblk m c 0 ⟨n, h⟩) (iblk m c 1 ⟨n, h⟩) (iblk m c 2 ⟨n, h⟩) (iblk m c 3 ⟨n, h⟩) (iblk m c 4 ⟨n, h⟩) (iblk m c 5 ⟨n, h⟩) (iblk m c 6 ⟨n, h⟩) (outsAt0 m c (n - 1) hb).2 (fun hh => h0 ((hcond0_0 ⟨n, h⟩).mp hh)) ((hcond0_1 ⟨n, h⟩).mpr h1)) (ix2 p q)).trans ?_
        refine (step m c ⟨n, h⟩ _ p q r cn hr hcn).trans ?_
        rw [ihn, partialDot_succ]
      · rw [outsAt0_B m c ⟨n, h⟩ h0 h1]
        dsimp only
        refine (congrFun (scratch_B (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) (ms0_6 ⟨n, h⟩) (hs0_6 ⟨n, h⟩) (ms0_7 ⟨n, h⟩) (hs0_7 ⟨n, h⟩) scM0_0 (Memref.isWhole_whole _) (iblk m c 0 ⟨n, h⟩) (iblk m c 1 ⟨n, h⟩) (iblk m c 2 ⟨n, h⟩) (iblk m c 3 ⟨n, h⟩) (iblk m c 4 ⟨n, h⟩) (iblk m c 5 ⟨n, h⟩) (iblk m c 6 ⟨n, h⟩) (outsAt0 m c (n - 1) hb).2 (fun hh => h0 ((hcond0_0 ⟨n, h⟩).mp hh)) (fun hh => h1 ((hcond0_1 ⟨n, h⟩).mp hh))) (ix2 p q)).trans ?_
        refine (step m c ⟨n, h⟩ _ p q r cn hr hcn).trans ?_
        rw [ihn, partialDot_succ]

/-- THE OUTPUT TILE at the last point of a contraction: entry (p, q) is the layer's entry at the tile's row and
    output channel. -/
theorem output_at (c : Dev nD) (t : Fin cfg0.N) (h7 : t.val % 8 = 7) (p q : Fin 1024) (r : Fin 8192) (cn : Fin 4096)
    (hr : r.val = 1024 * (t.val / 32) + p.val) (hcn : cn.val = 1024 * (t.val / 8 % 4) + q.val) :
    (outsAt0 m c t.val t.isLt).1 (ix2 p q) = entry (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) r cn := by
  have h0 : ¬t.val % 8 = 0 := by omega
  have hb : t.val - 1 < cfg0.N := Nat.lt_of_le_of_lt (Nat.sub_le _ _) t.isLt
  have hacc : k0_pay3 (iblk m c 5 t) (iblk m c 6 t) (iblk m c 0 t) (iblk m c 1 t) (outsAt0 m c (t.val - 1) hb).2 (ix2 p q)
      = ∑ k : Fin 4096, term (m ((c : Thread nD τ).loc main_arg0)) (m ((c : Thread nD τ).loc main_arg1)) (m ((c : Thread nD τ).loc main_arg3)) (m ((c : Thread nD τ).loc main_arg4) ix0) (toR (m ((c : Thread nD τ).loc main_arg5) ix0)) r cn k.val := by
    have e1 : (outsAt0 m c t.val t.isLt).2 (ix2 p q)
        = k0_pay3 (iblk m c 5 t) (iblk m c 6 t) (iblk m c 0 t) (iblk m c 1 t) (outsAt0 m c (t.val - 1) hb).2 (ix2 p q) := by
      rw [outsAt0_C m c t h0 h7]
      dsimp only
      exact congrFun (scratch_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (iblk m c 0 t) (iblk m c 1 t) (iblk m c 2 t) (iblk m c 3 t) (iblk m c 4 t) (iblk m c 5 t) (iblk m c 6 t) (outsAt0 m c (t.val - 1) hb).2 (fun hh => h0 ((hcond0_0 t).mp hh)) ((hcond0_1 t).mpr h7)) (ix2 p q)
    rw [← e1, scratch_after m c t.val t.isLt p q r cn hr hcn, h7]
    exact partialDot_all _ _ _ _ _ _ _
  rw [outsAt0_C m c t h0 h7]
  dsimp only
  refine (congrFun (output_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (iblk m c 0 t) (iblk m c 1 t) (iblk m c 2 t) (iblk m c 3 t) (iblk m c 4 t) (iblk m c 5 t) (iblk m c 6 t) (outsAt0 m c (t.val - 1) hb).2 (fun hh => h0 ((hcond0_0 t).mp hh)) ((hcond0_1 t).mpr h7)) (ix2 p q)).trans ?_
  refine (epilogue_apply (iblk m c 5 t) (iblk m c 2 t) _ (iblk m c 3 t) (iblk m c 4 t) p q).trans ?_
  unfold entry
  exact congrArg₂ (· + ·)
    (congrArg₂ (· * ·) hacc (congrArg₂ (· * ·) (scaleTile m c t) (wscaleTile m c t q cn hcn)))
    (congrArg₂ (· * ·) (biasTile m c t q cn hcn) (bscaleTile m c t q cn hcn))

end Cert.QLinear.Acc

end
-- ==== Proof.KernelResult.lean ====
/-
  The kernel's result array.

  Output tile (bi, bj) is written back once, after the last of its eight contraction points, t = 8 (4 bi + bj) + 7;
  it then holds the layer's entries at rows 1024 bi + p and output channels 1024 bj + q. The 8 x 4 tiles of 1024 x 1024
  entries cover the 8192 x 4096 array, so after the run the result array is the layer's output at every entry.
-/
import proofs.«134481_j60722247631708_1_alg».proof.Proof.Gen.KernelIdeal.Value
import proofs.«134481_j60722247631708_1_alg».proof.Proof.Accumulation

noncomputable section

namespace Cert.QLinear.Kernel

open Cert.KernelIdeal Cert.KernelIdeal.Gen Idealize.ShloMosaic Idealize.ShloMosaic.TcCoe Idealize.SL.Sem
open Idealize.ShloMosaic.Pipeline (Dat)
open Idealize.ShloMosaic.ValueIdx Cert.QLinear Cert.QLinear.Tiles Cert.QLinear.Acc

variable (m : (ℓ : Loc nD τ sig) → Buf (Elt Ideal) ℓ) (ρ : Dev nD → PrngReg)

/-- The layer's output of the argument arrays as launched, on core c. -/
abbrev result (c : Dev nD) : S8192x4096.Idx → EReal :=
  layer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))

/-- The output tile at the last point of a contraction, entry y, is the layer's output at the array index the
    tile's block puts y at. -/
theorem tile_entry (c : Dev nD) (t : Fin cfg0.N) (h7 : t.val % 8 = 7) (y : S1024x1024.Idx) (i : S8192x4096.Idx)
    (h0 : (i 0).val = 1024 * (t.val / 32) + (y 0).val) (h1 : (i 1).val = 1024 * (t.val / 8 % 4) + (y 1).val) :
    (outsAt0 m c t.val t.isLt).1 y = result m c i := by
  obtain ⟨p, q, rfl⟩ : ∃ (p : Fin 1024) (q : Fin 1024), y = ix2 p q := ⟨y 0, y 1, eq_ix2 y⟩
  obtain ⟨r, n, rfl⟩ : ∃ (r : Fin 8192) (n : Fin 4096), i = ix2 r n := ⟨i 0, i 1, eq_ix2 i⟩
  exact output_at m c t h7 p q r n h0 h1

/-- WHAT A WRITE-BACK WRITES: the block of the layer's output. -/
theorem flushed_eq (c : Dev nD) (t : Fin cfg0.N) (hf : (cfg0.win 7).flush t = true) :
    (dats m 0 c).flushed 7 t = ((cfg0.win 7).blk t).view.read (Elt Ideal) (result m c) := by
  have h7 : t.val % 8 = 7 := (flush0_7 t).mp hf
  obtain ⟨-, -, -, -, -, -, -, -, -, -, -, -, -, -, e0, e1⟩ := block_index t
  rw [Cert.KernelIdeal.Value.flushed7]
  funext y
  show (outsAt0 m c t.val t.isLt).1 y = result m c (((cfg0.win 7).blk t).view.emb y)
  refine tile_entry m c t h7 y _ ?_ ?_
  · show win0_7.index t (0 : Fin 2) * 1024 + 1 * (y 0).val = _
    omega
  · show win0_7.index t (1 : Fin 2) * 1024 + 1 * (y 1).val = _
    omega

/-- An index of the array is in point t's block iff each coordinate is in the block's range on its axis. -/
theorem mem_blk (t : Fin cfg0.N) (i : S8192x4096.Idx) :
    i ∈ ((cfg0.win 7).blk t).view.set ↔ ∀ a : Fin 2, win0_7.index t a * S1024x1024.size a ≤ (i a).val ∧ (i a).val < win0_7.index t a * S1024x1024.size a + S1024x1024.size a := by
  show i ∈ ((View.whole main_v11).slice (win0_7.rect t)).set ↔ _
  rw [View.set_slice_whole, Rect.mem_set_unit]
  exact Iff.rfl

/-- Every entry of the array is in the block some write-back writes: the tile of its row block and column block. -/
theorem covered (i : S8192x4096.Idx) : ∃ t : Fin cfg0.N, (cfg0.win 7).flush t = true ∧ i ∈ ((cfg0.win 7).blk t).view.set := by
  have hi0 : (i 0).val < 8192 := (i 0).isLt
  have hi1 : (i 1).val < 4096 := (i 1).isLt
  have hN : cfg0.N = 256 := N_0
  have hlt : ((i 0).val / 1024 * 4 + (i 1).val / 1024) * 8 + 7 < cfg0.N := by rw [hN]; omega
  let t : Fin cfg0.N := ⟨((i 0).val / 1024 * 4 + (i 1).val / 1024) * 8 + 7, hlt⟩
  have ht : t.val = ((i 0).val / 1024 * 4 + (i 1).val / 1024) * 8 + 7 := rfl
  obtain ⟨-, -, -, -, -, -, -, -, -, -, -, -, -, -, e0, e1⟩ := block_index t
  refine ⟨t, (flush0_7 t).mpr (by rw [ht]; omega), ?_⟩
  rw [mem_blk]
  intro a
  match a with
  | ⟨0, _⟩ =>
    show win0_7.index t (0 : Fin 2) * 1024 ≤ (i 0).val ∧ (i 0).val < win0_7.index t (0 : Fin 2) * 1024 + 1024
    omega
  | ⟨1, _⟩ =>
    show win0_7.index t (1 : Fin 2) * 1024 ≤ (i 1).val ∧ (i 1).val < win0_7.index t (1 : Fin 2) * 1024 + 1024
    omega

/-- THE RESULT ARRAY after the run is the layer's output. -/
theorem final (c : Dev nD) : (dats m 0 c).arrAt 7 cfg0.N = result m c :=
  (dats m 0 c).arrAt_eq_of_cover 7 (result m c) (fun t hf => flushed_eq m c t hf) covered

/-- The run, read: the result array at the layer's output of the arguments, the arguments unchanged. -/
theorem run : θ_run defs (onTc (τ := τ) (main (F := Ideal))) ⟨m, fun _ => 0, ρ⟩ fun r => ∀ c : Dev nD,
      r.2.mem ((c : Thread nD τ).loc main_v11) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩)
    (Cert.KernelIdeal.Value.run_blocks m ρ)

end Cert.QLinear.Kernel

end
-- ==== Proof.ReferenceResult.lean ====
/-
  The reference computes the layer.

  Reading the reference's operations one at a time at entry (r, n): the clipped, rounded quotient less the zero point
  is the quantizer applied to x[r, k]; the converted difference of a weight word and its channel's zero point is the
  corrected weight; the product contracts the second axis of both; the two per-channel rows broadcast down the rows
  read channel n. So the reference's result is the layer's output, with the contraction as one sum over all 4096
  input channels.
-/
import proofs.«134481_j60722247631708_1_alg».proof.Proof.Gen.ReferenceIdeal.Read
import proofs.«134481_j60722247631708_1_alg».proof.Proof.QuantSpec

noncomputable section

namespace Cert.QLinear.Reference

open Cert.ReferenceIdeal Cert.ReferenceIdeal.Gen Cert.ReferenceIdeal.Read Idealize.ShloMosaic
open Idealize.ShloMosaic.ValueIdx Cert.QLinear
open scoped BigOperators

variable (x0 : (⟨S8192x4096, .f32⟩ : BufTy).Contents (Elt Ideal)) (x1 : (⟨S4096x4096, .i32⟩ : BufTy).Contents (Elt Ideal))
  (x2 : (⟨S4096, .f32⟩ : BufTy).Contents (Elt Ideal)) (x3 : (⟨S4096, .i32⟩ : BufTy).Contents (Elt Ideal))
  (x4 : (⟨S_, .f32⟩ : BufTy).Contents (Elt Ideal)) (x5 : (⟨S_, .i32⟩ : BufTy).Contents (Elt Ideal))
  (x6 : (⟨S4096, .i32⟩ : BufTy).Contents (Elt Ideal)) (x7 : (⟨S4096, .f32⟩ : BufTy).Contents (Elt Ideal))

/-- The quantized activation at (r, k). -/
theorem quantized_apply (r : Fin 8192) (k : Fin 4096) :
    val_main_v8 (F := Ideal) x0 x4 x5 (ix2 r k) = quant (x4 ix0) (toR (x5 ix0)) (x0 (ix2 r k)) := by
  rw [val_main_v8_apply, val_main_v6_apply, val_main_call1_v4_apply, val_main_call1_v2_apply, val_main_call1_v1_apply,
    val_main_v5_apply, val_main_v3_apply, val_main_v2_apply, val_main_v1_apply, val_main_v4_apply, val_main_v7_apply]
  rfl

/-- The corrected weight at (n, k). -/
theorem weight_apply (n k : Fin 4096) :
    val_main_v12 (F := Ideal) x1 x3 (ix2 n k) = toR (IntOp.subi (x1 (ix2 n k)) (x3 (ix1 n))) := by
  have e : idx_main_v9 (idx_main_v10 (ix2 n k)) = ix1 n := funext fun a => Fin.ext (by
    match a with
    | ⟨0, _⟩ => rfl)
  rw [val_main_v12_apply, val_main_v11_apply, val_main_v10_apply, val_main_v9_apply, e]
  rfl

/-- The dequantization factor at (r, n). -/
theorem factor_apply (r : Fin 8192) (n : Fin 4096) :
    val_main_v17 (F := Ideal) x2 x4 (ix2 r n) = x4 ix0 * x2 (ix1 n) := by
  have e : idx_main_v16 (idx_main_v17 (ix2 r n)) = ix1 n := funext fun a => Fin.ext (by
    match a with
    | ⟨0, _⟩ => rfl)
  rw [val_main_v17_apply, val_main_v16_apply, val_main_v15_apply, val_main_v14_apply, e]
  rfl

/-- The bias at (r, n). -/
theorem bias_apply (r : Fin 8192) (n : Fin 4096) :
    val_main_v23 (F := Ideal) x6 x7 (ix2 r n) = toR (x6 (ix1 n)) * x7 (ix1 n) := by
  have e1 : idx_main_v21 (idx_main_v23 (ix2 r n)) = ix1 n := funext fun a => Fin.ext (by
    match a with
    | ⟨0, _⟩ => rfl)
  have e2 : idx_main_v20 (idx_main_v23 (ix2 r n)) = ix1 n := funext fun a => Fin.ext (by
    match a with
    | ⟨0, _⟩ => rfl)
  rw [val_main_v23_apply, val_main_v22_apply, val_main_v21_apply, val_main_v20_apply, val_main_v19_apply, e1, e2]
  rfl

/-- The contraction at (r, n). -/
theorem dot_apply (r : Fin 8192) (n : Fin 4096) :
    val_main_v13 (F := Ideal) x0 x1 x3 x4 x5 (ix2 r n)
      = ∑ k : Fin 4096, term x0 x1 x3 (x4 ix0) (toR (x5 ix0)) r n k.val := by
  rw [val_main_v13_apply]
  refine Finset.sum_congr rfl fun k _ => ?_
  have el : lidx_main_v13 (ix2 r n) k = ix2 r k := funext fun a => Fin.ext (by
    match a with
    | ⟨0, _⟩ => rfl
    | ⟨1, _⟩ => rfl)
  have er : ridx_main_v13 (ix2 r n) k = ix2 n k := funext fun a => Fin.ext (by
    match a with
    | ⟨0, _⟩ => rfl
    | ⟨1, _⟩ => rfl)
  rw [el, er, quantized_apply, weight_apply]
  unfold term
  rw [dif_pos k.isLt]

/-- THE REFERENCE'S RESULT is the layer's output. -/
theorem result_eq :
    val_main_v24 (F := Ideal) x0 x1 x2 x3 x4 x5 x6 x7 = layer x0 x1 x2 x3 x4 x5 x6 x7 := by
  funext i
  obtain ⟨r, n, rfl⟩ : ∃ (r : Fin 8192) (n : Fin 4096), i = ix2 r n := ⟨i 0, i 1, eq_ix2 i⟩
  rw [layer_ix2]
  unfold entry
  show val_main_v13 (F := Ideal) x0 x1 x3 x4 x5 (ix2 r n) * val_main_v17 (F := Ideal) x2 x4 (ix2 r n)
      + val_main_v23 (F := Ideal) x6 x7 (ix2 r n) = _
  rw [dot_apply, factor_apply, bias_apply]

end Cert.QLinear.Reference

end
-- ==== Proof.lean ====
/-
  A quantized linear layer as one tiled matrix-product kernel against its plain reference, over the extended reals.

  Both programs quantize the activations with one scale and one zero point, q(x) = min(127, max(-128,
  roundeven(x / s) + z)) - z, correct the integer weights by their channel's zero point, contract over the 4096 input
  channels, scale by s * ws[n] and add b[n] * bs[n]. The kernel walks the contraction in eight blocks of 512 channels
  per 1024 x 1024 output tile, accumulating into a scratch tile that it resets at the first block and scales and writes
  out at the last; the reference takes one product over all channels. Over the extended reals an integer read as a
  number is the same number whatever float format it is converted to, rounding to a narrower format is the identity,
  and a sum may be taken in consecutive blocks, addition being commutative and associative: so the two results are
  equal entry by entry, with no use of the inputs' finiteness.

  The kernel's frames, its run with the result array named, the reference's run and its operations read at an index
  are the generated modules imported below. The argument itself: the layer's specification (QuantSpec), the body's
  arithmetic at an entry (BodyAtEntry), the three control cases as values (CaseValues), the tiles as entries of the
  arguments (Tiles), the accumulator across the grid (Accumulation), the result array (KernelResult), and the reference
  as the layer (ReferenceResult).
-/
import proofs.«134481_j60722247631708_1_alg».proof.Defs
import proofs.«134481_j60722247631708_1_alg».proof.Proof.Gen.Kernel
import proofs.«134481_j60722247631708_1_alg».proof.Proof.Gen.Kernel.Frame
import proofs.«134481_j60722247631708_1_alg».proof.Proof.Gen.KernelIdeal
import proofs.«134481_j60722247631708_1_alg».proof.Proof.Gen.KernelIdeal.Frame
import proofs.«134481_j60722247631708_1_alg».proof.Proof.Gen.ReferenceIdeal
import proofs.«134481_j60722247631708_1_alg».proof.Proof.Gen.Pre_finite_inputs
import proofs.«134481_j60722247631708_1_alg».proof.Proof.Gen.KernelIdeal.Value
import proofs.«134481_j60722247631708_1_alg».proof.Proof.Gen.ReferenceIdeal.Run
import proofs.«134481_j60722247631708_1_alg».proof.Proof.Gen.ReferenceIdeal.Read
import proofs.«134481_j60722247631708_1_alg».proof.Proof.KernelResult
import proofs.«134481_j60722247631708_1_alg».proof.Proof.ReferenceResult
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten on the way to the extended reals. -/
theorem preserves : Cert.preserves_Kernel_KernelIdeal := trivial

/-- Both programs end with the layer's output of the arguments they agree on. -/
theorem algebraic : Cert.algebraic_KernelIdeal_ReferenceIdeal := by
  intro m ρ m' ρ' _ hagree
  refine ⟨fun c => Cert.QLinear.Kernel.result m c, Cert.QLinear.Kernel.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [Cert.ReferenceIdeal.Read.val_main_v24_eq, Cert.QLinear.Reference.result_eq, a0, a1, a2, a3, a4, a5, a6, a7]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
